-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x4096 .f32 .bf16
  ∧ IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel

variable [Facts]

def fn {F : FTy → Type} [FloatOps F] (main_arg0 : FVec F S4x256x64x64 .f32) (main_arg1 : FVec F S4x256x64x64 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  main_v8
-- ==== Kernel.lean ====
abbrev S4x256x64x64 : Shape := ⟨4, ![4, 256, 64, 64]⟩
abbrev S4x256x4096 : Shape := ⟨3, ![4, 256, 4096]⟩
abbrev S4x4096x4096 : Shape := ⟨3, ![4, 4096, 4096]⟩
abbrev S1x256x4096 : Shape := ⟨3, ![1, 256, 4096]⟩
abbrev S1x256x512 : Shape := ⟨3, ![1, 256, 512]⟩
abbrev S1x4096x512 : Shape := ⟨3, ![1, 4096, 512]⟩
abbrev S256x4096 : Shape := ⟨2, ![256, 4096]⟩
abbrev S256x512 : Shape := ⟨2, ![256, 512]⟩
abbrev S4096x512 : Shape := ⟨2, ![4096, 512]⟩
abbrev S512 : Shape := ⟨1, ![512]⟩
abbrev S1x512 : Shape := ⟨2, ![1, 512]⟩
abbrev S4x4096x64x64 : Shape := ⟨4, ![4, 4096, 64, 64]⟩

abbrev nBuf : Space → Nat
  | .hbm => 6
  | .vmem => 8
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S4x256x4096, .f32⟩
  | .hbm, ⟨4, _⟩ => ⟨S4x4096x4096, .f32⟩
  | .hbm, ⟨5, _⟩ => ⟨S4x4096x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x512, .f32⟩
  | .local _ .vmem, ⟨3, _⟩ => ⟨S1x256x512, .f32⟩
  | .local _ .vmem, ⟨4, _⟩ => ⟨S1x4096x512, .f32⟩
  | .local _ .vmem, ⟨5, _⟩ => ⟨S1x4096x512, .f32⟩
  | .local _ .vmem, ⟨6, _⟩ => ⟨S256x4096, .bf16⟩
  | .local _ .vmem, ⟨7, _⟩ => ⟨S256x4096, .bf16⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x256x64x64_S4x256x4096 : S4x256x64x64.ShapeCasts S4x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S4096x512_S512 : S4096x512.Reduces [0] S512
  shapeCasts_S512_S1x512 : S512.ShapeCasts S1x512
  broadcasts_S1x512_S4096x512 : S1x512.Broadcasts S4096x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  shapeCasts_S4096x512_S1x4096x512 : S4096x512.ShapeCasts S1x4096x512
  shapeCasts_S4x4096x4096_S4x4096x64x64 : S4x4096x4096.ShapeCasts S4x4096x64x64
  dot_S256x4096_S256x512_S4096x512_0_0_1_1_n_n_wf : DotDims.WF S256x4096 S256x512 S4096x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x256x4096.size a
  hwx0_0 : ∀ i : grid0.Coords, EltTy.bits .f32 = 32 ∨ (Rect.block (s := S4x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x256x4096.size a
  hwx0_1 : ∀ i : grid0.Coords, EltTy.bits .f32 = 32 ∨ (Rect.block (s := S4x256x4096) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x512.size a ≤ S4x4096x4096.size a
  hwx0_2 : ∀ i : grid0.Coords, EltTy.bits .f32 = 32 ∨ (Rect.block (s := S4x4096x4096) S1x4096x512.size (cc0_transform_2 i) (hinb0_2 i)).WholeWords (EltTy.packing .f32)

variable [Facts₀]

def dot_S256x4096_S256x512_S4096x512_0_0_1_1_n_n : DotDims S256x4096 S256x512 S4096x512 where
  lhsContracting := [0]
  rhsContracting := [0]
  lhsNonContracting := [1]
  rhsNonContracting := [1]
  lhsBatch := []
  rhsBatch := []
  wf := dot_S256x4096_S256x512_S4096x512_0_0_1_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x64x64 : Shape := ⟨4, ![4, 256, 64, 64]⟩
abbrev S4x256x4096 : Shape := ⟨3, ![4, 256, 4096]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4x4096x64x64 : Shape := ⟨4, ![4, 4096, 64, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S4x256x4096, .f32⟩
  | .hbm, ⟨3, _⟩ => ⟨S4x256x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x1x4096, .f32⟩
  | .hbm, ⟨17, _⟩ => ⟨S4x4096x4096, .f32⟩
  | .hbm, ⟨18, _⟩ => ⟨S4x4096x4096, .f32⟩
  | .hbm, ⟨19, _⟩ => ⟨S4x4096x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  shapeCasts_S4x4096x4096_S4x4096x64x64 : S4x4096x4096.ShapeCasts S4x4096x64x64
  dot_S4x256x4096_S4x256x4096_S4x4096x4096_1_1_2_2_0_0_wf : DotDims.WF S4x256x4096 S4x256x4096 S4x4096x4096 [1] [1] [2] [2] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf

class Facts : Prop extends Facts₀ where

variable [Facts]
-- ==== Proof.Spec.lean ====
/-
  The specification. Two feature arrays a, b over [batch 4, channel 256, position 4096] (the 64 x 64 positions
  flattened) give the correlation volume corr n p q = ∑ k, a (n, k, p) * b (n, k, q) and its softmax down the
  FIRST position axis p: with M n q the maximum over p of corr n p q and w n p q = exp (corr n p q - M n q), the
  result at (n, p, q) is w n p q / ∑ p', w n p' q. Everything is over the extended reals; the maximum is the fold of
  max from the word 0xFF800000 (the bottom element), the quotient and the exponential the ideal instance's.
  The last lemma is the one law between the two programs: a correlation computed in three passes over the
  split x = x + (x - x) is the plain correlation as soon as every entry is a real number (x - x = 0 there).
-/
import Idealize.ShloMosaic.PureOps.Ideal
import Idealize.ShloMosaic.Lib.ValueIdx

noncomputable section

namespace Cert.Spec

open Idealize.ShloMosaic Idealize.ShloMosaic.ValueIdx
open scoped BigOperators

/-- A feature array flattened over its positions: [batch, channel, position]. -/
abbrev Feat : Shape := ⟨3, ![4, 256, 4096]⟩
/-- The correlation volume: [batch, position of the first array, position of the second]. -/
abbrev Vol : Shape := ⟨3, ![4, 4096, 4096]⟩

/-- The softmax of 4096 scores at position p: exp (c p - max c) over the sum of these. -/
def colSoftmax (c : Fin 4096 → EReal) (p : Fin 4096) : EReal :=
  Ideal.div (Ideal.exp (c p - (Finset.univ : Finset (Fin 4096)).fold max (Ideal.ofBits .f32 0xFF800000#32) c))
    (∑ p' : Fin 4096, Ideal.exp (c p' - (Finset.univ : Finset (Fin 4096)).fold max (Ideal.ofBits .f32 0xFF800000#32) c))

/-- The correlation of position p of a with position q of b in batch n: the sum over the 256 channels. -/
def corr (a b : Feat.Idx → EReal) (n : Fin 4) (p q : Fin 4096) : EReal :=
  ∑ k : Fin 256, a (ix3 n k p) * b (ix3 n k q)

/-- The whole result as one function of the two flattened feature arrays. -/
def G (a b : Feat.Idx → EReal) : Vol.Idx → EReal :=
  fun i => colSoftmax (fun p' => corr a b (i 0) p' (i 2)) (i 1)

theorem G_ix3 (a b : Feat.Idx → EReal) (n : Fin 4) (p q : Fin 4096) :
    G a b (ix3 n p q) = colSoftmax (fun p' => corr a b n p' q) p := rfl

/-- The correlation in three passes over the split of each entry x into x and x - x. -/
def corr3 (a b : Feat.Idx → EReal) (n : Fin 4) (p q : Fin 4096) : EReal :=
  (∑ k : Fin 256, a (ix3 n k p) * b (ix3 n k q)
    + ∑ k : Fin 256, a (ix3 n k p) * (b (ix3 n k q) - b (ix3 n k q)))
    + ∑ k : Fin 256, (a (ix3 n k p) - a (ix3 n k p)) * b (ix3 n k q)

/-- On arrays of real numbers the two correction passes vanish. -/
theorem corr3_eq_corr (a b : Feat.Idx → EReal) (ha : ∀ i, a i ≠ ⊤ ∧ a i ≠ ⊥) (hb : ∀ i, b i ≠ ⊤ ∧ b i ≠ ⊥)
    (n : Fin 4) (p q : Fin 4096) : corr3 a b n p q = corr a b n p q := by
  unfold corr3 corr
  have h1 : ∑ k : Fin 256, a (ix3 n k p) * (b (ix3 n k q) - b (ix3 n k q)) = 0 :=
    Finset.sum_eq_zero fun k _ => by rw [EReal.sub_self (hb _).1 (hb _).2, mul_zero]
  have h2 : ∑ k : Fin 256, (a (ix3 n k p) - a (ix3 n k p)) * b (ix3 n k q) = 0 :=
    Finset.sum_eq_zero fun k _ => by rw [EReal.sub_self (ha _).1 (ha _).2, zero_mul]
  rw [h1, h2, add_zero, add_zero]

end Cert.Spec

end
-- ==== Proof.Pieces.lean ====
/-
  What one run of the body leaves behind, as values. The body has two cases. At the first column tile of a batch it
  first stores the split of the batch's whole block x of the first feature array into the two scratch buffers: x
  itself (the narrowing is a format change) and x - x; at every other tile it leaves them as the point before left
  them. In both cases it then stores into the output block ONE value: the column softmax of the three-pass
  correlation of the scratch pair with the split of the tile of the second feature array. The lemmas below read
  each buffer's covering store back as that value: the scratch pair after the storing case, and the output block in
  either case as a function of the tile and of the scratch contents the correlation reads (in the storing case the
  ones just stored, read back through the store).
-/
import proofs.«103866_j9457517986040_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The storing case leaves the first scratch buffer at the batch's block itself. -/
theorem hi_stored (c : Dev nD) (i : grid0.Coords) (arg2 : Memref sig .tc .vmem S1x256x4096 .f32) (harg2 : arg2.IsWhole) (arg3 : Memref sig .tc .vmem S1x256x512 .f32) (harg3 : arg3.IsWhole) (arg4 : Memref sig .tc .vmem S1x4096x512 .f32) (harg4 : arg4.IsWhole) (arg5 : Memref sig .tc .vmem S256x4096 .bf16) (harg5 : arg5.IsWhole) (arg6 : Memref sig .tc .vmem S256x4096 .bf16) (harg6 : arg6.IsWhole) (hc0 : cond0_0 i)
    (x0 : Vec F S1x256x4096 .f32) (x1 : Vec F S1x256x512 .f32) :
    sout0_A_0 c i arg2 harg2 arg3 harg3 arg4 harg4 arg5 harg5 arg6 harg6 hc0 x0 x1 = k0_pay2 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero (S := S256x4096) hz2]
  simp only [View.readAt_eq_ld, harg2.read_unread, View.ld_unit_zero (S := S1x256x4096) hz3]

/-- The storing case leaves the second scratch buffer at the block minus itself. -/
theorem lo_stored (c : Dev nD) (i : grid0.Coords) (arg2 : Memref sig .tc .vmem S1x256x4096 .f32) (harg2 : arg2.IsWhole) (arg3 : Memref sig .tc .vmem S1x256x512 .f32) (harg3 : arg3.IsWhole) (arg4 : Memref sig .tc .vmem S1x4096x512 .f32) (harg4 : arg4.IsWhole) (arg5 : Memref sig .tc .vmem S256x4096 .bf16) (harg5 : arg5.IsWhole) (arg6 : Memref sig .tc .vmem S256x4096 .bf16) (harg6 : arg6.IsWhole) (hc0 : cond0_0 i)
    (x0 : Vec F S1x256x4096 .f32) (x1 : Vec F S1x256x512 .f32) :
    sout0_A_1 c i arg2 harg2 arg3 harg3 arg4 harg4 arg5 harg5 arg6 harg6 hc0 x0 x1 = k0_pay3 x0 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero (S := S256x4096) hz2]
  simp only [View.readAt_eq_ld, harg2.read_unread, View.ld_unit_zero (S := S1x256x4096) hz3]

/-- The storing case's output block: the softmax of the tile against the scratch pair it has just stored. -/
theorem out_storing (c : Dev nD) (i : grid0.Coords) (arg2 : Memref sig .tc .vmem S1x256x4096 .f32) (harg2 : arg2.IsWhole) (arg3 : Memref sig .tc .vmem S1x256x512 .f32) (harg3 : arg3.IsWhole) (arg4 : Memref sig .tc .vmem S1x4096x512 .f32) (harg4 : arg4.IsWhole) (arg5 : Memref sig .tc .vmem S256x4096 .bf16) (harg5 : arg5.IsWhole) (arg6 : Memref sig .tc .vmem S256x4096 .bf16) (harg6 : arg6.IsWhole) (hc0 : cond0_0 i)
    (x0 : Vec F S1x256x4096 .f32) (x1 : Vec F S1x256x512 .f32) :
    out0_A_2 c i arg2 harg2 arg3 harg3 arg4 harg4 arg5 harg5 arg6 harg6 hc0 x0 x1 = k0_pay4 x1 (k0_pay2 x0) (k0_pay2 x0) (k0_pay3 x0) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (S := S1x4096x512) hz3]
  simp only [View.readCov_unit_zero (S := S256x4096) _ hz2, View.readAt_eq_ld, harg2.read_unread, harg3.read_unread,
    View.ld_unit_zero (S := S1x256x4096) hz3, View.ld_unit_zero (S := S1x256x512) hz3]

/-- The other case's output block: the softmax of the tile against the scratch pair the point before left. -/
theorem out_keeping (c : Dev nD) (i : grid0.Coords) (arg2 : Memref sig .tc .vmem S1x256x4096 .f32) (harg2 : arg2.IsWhole) (arg3 : Memref sig .tc .vmem S1x256x512 .f32) (harg3 : arg3.IsWhole) (arg4 : Memref sig .tc .vmem S1x4096x512 .f32) (harg4 : arg4.IsWhole) (arg5 : Memref sig .tc .vmem S256x4096 .bf16) (harg5 : arg5.IsWhole) (arg6 : Memref sig .tc .vmem S256x4096 .bf16) (harg6 : arg6.IsWhole) (hc0 : ¬cond0_0 i)
    (x0 : Vec F S1x256x4096 .f32) (x1 : Vec F S1x256x512 .f32) (xs0 xs1 : Vec F S256x4096 .bf16) :
    out0_B_2 c i arg2 harg2 arg3 harg3 arg4 harg4 arg5 harg5 arg6 harg6 hc0 x0 x1 xs0 xs1 = k0_pay4 x1 xs0 xs0 xs1 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero (S := S1x4096x512) hz3]
  simp only [View.readAt_eq_ld, harg3.read_unread, harg5.read_unread, harg6.read_unread,
    View.ld_unit_zero (S := S1x256x512) hz3, View.ld_unit_zero (S := S256x4096) hz2]

end Cert.KernelIdeal.Pieces

end
-- ==== Proof.Blocks.lean ====
/-
  Where each block sits. The grid is 4 batches by 8 column tiles, walked batch by batch; point t is batch t / 8 and
  tile t % 8. At point t the first feature array's window is the whole [256, 4096] slab of batch t / 8, the second
  one's the [256, 512] columns 512 (t % 8) ... of that batch's slab, and the output's the [4096, 512] columns
  512 (t % 8) ... of batch t / 8 of the correlation volume. The lemmas read an input block at an index as the array
  at the corresponding index, place an element of the output block in the volume, and show that the 32 output blocks
  cover the volume: the element (n, p, q) lies in the block of point 8 n + q / 512.
-/
import proofs.«103866_j9457517986040_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The three windows' block indices at every point, decided over the grid. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8 :=
  (by decide +kernel : ∀ t : Fin grid0.N, _)

theorem batch_lt (t : Fin cfg0.N) : t.val / 8 < 4 := by
  have h : t.val < 32 := lt_of_lt_of_eq t.isLt (show cfg0.N = 32 from N_0); omega

theorem col_lt (t : Fin cfg0.N) (j : Fin 512) : 512 * (t.val % 8) + j.val < 4096 := by
  have := j.isLt; omega

/-- The batch of point t. -/
abbrev batch (t : Fin cfg0.N) : Fin 4 := ⟨t.val / 8, batch_lt t⟩
/-- Column j of tile t % 8 as a column of the whole. -/
abbrev col (t : Fin cfg0.N) (j : Fin 512) : Fin 4096 := ⟨512 * (t.val % 8) + j.val, col_lt t j⟩

/-- The first feature array's block at point t is batch t / 8 of it. -/
theorem iblk0_apply (c : Dev nD) (t : Fin cfg0.N) (k : Fin 256) (p : Fin 4096) :
    (iblk m c 0 t : Vec F S1x256x4096 .f32) (ix3 (0 : Fin 1) k p) = V m c main_v0 (ix3 (batch t) k p) := by
  obtain ⟨e0, e1, e2, -⟩ := idx_facts t
  show V m c main_v0 (((cfg0.win 0).blk t).view.emb (ix3 (0 : Fin 1) k p)) = V m c main_v0 (ix3 (batch t) k p)
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 256 + 1 * k.val = k.val; omega
  | ⟨2, _⟩ => show win0_0.index t (2 : Fin 3) * 4096 + 1 * p.val = p.val; omega

/-- The second feature array's block at point t is columns 512 (t % 8) ... of batch t / 8 of it. -/
theorem iblk1_apply (c : Dev nD) (t : Fin cfg0.N) (k : Fin 256) (j : Fin 512) :
    (iblk m c 1 t : Vec F S1x256x512 .f32) (ix3 (0 : Fin 1) k j) = V m c main_v1 (ix3 (batch t) k (col t j)) := by
  obtain ⟨-, -, -, e0, e1, e2, -⟩ := idx_facts t
  show V m c main_v1 (((cfg0.win 1).blk t).view.emb (ix3 (0 : Fin 1) k j)) = V m c main_v1 (ix3 (batch t) k (col t j))
  refine congrArg (V m c main_v1) (funext fun a => Fin.ext ?_)
  match a with
  | ⟨0, _⟩ => show win0_1.index t (0 : Fin 3) * 1 + 1 * 0 = t.val / 8; omega
  | ⟨1, _⟩ => show win0_1.index t (1 : Fin 3) * 256 + 1 * k.val = k.val; omega
  | ⟨2, _⟩ => show win0_1.index t (2 : Fin 3) * 512 + 1 * j.val = 512 * (t.val % 8) + j.val; omega

/-- An element of the output block of point t, placed in the volume. -/
theorem oblk_emb (t : Fin cfg0.N) (p : Fin 4096) (j : Fin 512) :
    ((cfg0.win 2).blk t).view.emb (ix3 (0 : Fin 1) p j) = ix3 (batch t) p (col t j) := by
  obtain ⟨-, -, -, -, -, -, e0, e1, e2⟩ := idx_facts t
  refine funext fun a => Fin.ext ?_
  match a with
  | ⟨0, _⟩ => show win0_2.index t (0 : Fin 3) * 1 + 1 * 0 = t.val / 8; omega
  | ⟨1, _⟩ => show win0_2.index t (1 : Fin 3) * 4096 + 1 * p.val = p.val; omega
  | ⟨2, _⟩ => show win0_2.index t (2 : Fin 3) * 512 + 1 * j.val = 512 * (t.val % 8) + j.val; omega

/-- An index of the volume is in point t's block iff each coordinate is in the block's range on its axis. -/
theorem mem_oblk (t : Fin cfg0.N) (i : S4x4096x4096.Idx) :
    i ∈ ((cfg0.win 2).blk t).view.set ↔ ∀ a : Fin 3, win0_2.index t a * S1x4096x512.size a ≤ (i a).val ∧ (i a).val < win0_2.index t a * S1x4096x512.size a + S1x4096x512.size a := by
  show i ∈ ((View.whole main_v2).slice (win0_2.rect t)).set ↔ _
  rw [View.set_slice_whole, Rect.mem_set_unit]
  exact Iff.rfl

/-- The 32 output blocks cover the volume. -/
theorem cover (i : S4x4096x4096.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 4096 := (i 2).isLt
  have hN : cfg0.N = 32 := N_0
  refine ⟨⟨8 * (i 0).val + (i 2).val / 512, by rw [hN]; omega⟩, flush0_2 _, ?_⟩
  rw [mem_oblk]
  obtain ⟨-, -, -, -, -, -, e0, e1, e2⟩ := idx_facts ⟨8 * (i 0).val + (i 2).val / 512, by rw [hN]; omega⟩
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 4096 ≤ (i 1).val ∧ (i 1).val < win0_2.index _ (1 : Fin 3) * 4096 + 4096; rw [e1]; omega
  | ⟨2, _⟩ => show win0_2.index _ (2 : Fin 3) * 512 ≤ (i 2).val ∧ (i 2).val < win0_2.index _ (2 : Fin 3) * 512 + 512; rw [e2]; dsimp only; omega

end Cert.KernelIdeal.Blocks

end
-- ==== Proof.Payload.lean ====
/-
  The values the kernel's body stores, read at an index, at the ideal instance.
  The two feature-block stores keep the loaded block x0 and the difference x0 - x0; the result store is,
  at (0, p, j), the softmax down the first axis of the three-pass correlation of the blocks.
-/
import proofs.«103866_j9457517986040_2_alg».proof.Proof.Gen.KernelIdeal.Skeleton
import proofs.«103866_j9457517986040_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx Idealize.SL.Sem
open scoped BigOperators

/-- The loaded feature block with its unit axis dropped reads, at (k, p), the block at (0, k, p). -/
theorem pay1_apply (x0 : Vec Ideal S1x256x4096 .f32) (k : Fin 256) (p : Fin 4096) :
    k0_pay1 (F := Ideal) x0 (ix2 k p) = x0 (ix3 (0 : Fin 1) k p) :=
  shapeCast_1ab_ab_apply x0 _ k p

/-- The first stored block: a change of format is the identity on ideal values, so it is the loaded block. -/
theorem pay2_apply (x0 : Vec Ideal S1x256x4096 .f32) (k : Fin 256) (p : Fin 4096) :
    k0_pay2 (F := Ideal) x0 (ix2 k p) = x0 (ix3 (0 : Fin 1) k p) := by
  unfold k0_pay2
  rw [shapeCast_self]
  exact pay1_apply x0 k p

/-- The second stored block: the loaded block minus itself. -/
theorem pay3_apply (x0 : Vec Ideal S1x256x4096 .f32) (k : Fin 256) (p : Fin 4096) :
    k0_pay3 (F := Ideal) x0 (ix2 k p) = x0 (ix3 (0 : Fin 1) k p) - x0 (ix3 (0 : Fin 1) k p) := by
  unfold k0_pay3
  rw [shapeCast_self]
  show k0_pay1 (F := Ideal) x0 (ix2 k p) - k0_pay1 (F := Ideal) x0 (ix2 k p) = _
  rw [pay1_apply]

/-! ## The result block -/

/-- The contraction record sums axis 0 of both operands and has no batch axis: the left operand's index at output
    (p, j) and channel k is (k, p), the right one's is (k, j). Coordinate by coordinate: -/
theorem lhs_0 (i : S4096x512.Idx) (q : dot_S256x4096_S256x512_S4096x512_0_0_1_1_n_n.contr.Idx) :
    (dot_S256x4096_S256x512_S4096x512_0_0_1_1_n_n.lhsIdx i q 0).val = (q ⟨0, by decide⟩).val :=
  dot_S256x4096_S256x512_S4096x512_0_0_1_1_n_n.lhsIdx_val_of_single rfl i q
theorem lhs_1 (i : S4096x512.Idx) (q : dot_S256x4096_S256x512_S4096x512_0_0_1_1_n_n.contr.Idx) :
    (dot_S256x4096_S256x512_S4096x512_0_0_1_1_n_n.lhsIdx i q 1).val = (i 0).val := by
  unfold DotDims.lhsIdx
  rw [dif_neg (show ¬(1 : Fin S256x4096.rank) ∈ dot_S256x4096_S256x512_S4096x512_0_0_1_1_n_n.lhsBatch by decide), dif_pos (show (1 : Fin S256x4096.rank) ∈ dot_S256x4096_S256x512_S4096x512_0_0_1_1_n_n.lhsNonContracting by decide)]
  rfl
theorem rhs_0 (i : S4096x512.Idx) (q : dot_S256x4096_S256x512_S4096x512_0_0_1_1_n_n.contr.Idx) :
    (dot_S256x4096_S256x512_S4096x512_0_0_1_1_n_n.rhsIdx i q 0).val = (q ⟨0, by decide⟩).val :=
  dot_S256x4096_S256x512_S4096x512_0_0_1_1_n_n.rhsIdx_val_of_single rfl i q
theorem rhs_1 (i : S4096x512.Idx) (q : dot_S256x4096_S256x512_S4096x512_0_0_1_1_n_n.contr.Idx) :
    (dot_S256x4096_S256x512_S4096x512_0_0_1_1_n_n.rhsIdx i q 1).val = (i 1).val := by
  unfold DotDims.rhsIdx
  rw [dif_neg (show ¬(1 : Fin S256x512.rank) ∈ dot_S256x4096_S256x512_S4096x512_0_0_1_1_n_n.rhsBatch by decide), dif_pos (show (1 : Fin S256x512.rank) ∈ dot_S256x4096_S256x512_S4096x512_0_0_1_1_n_n.rhsNonContracting by decide)]
  rfl

/-- A product into the zero splat reads, at (p, j), the sum over the 256 channels of lhs (k, p) * rhs (k, j). -/
theorem mm_apply (lhs : FVec Ideal S256x4096 .bf16) (rhs : FVec Ideal S256x512 .bf16) (p : Fin 4096) (j : Fin 512) :
    matmul dot_S256x4096_S256x512_S4096x512_0_0_1_1_n_n none lhs rhs (constant S4096x512 .f32 0x00000000#32) (ix2 p j)
      = ∑ k : Fin 256, lhs (ix2 k p) * rhs (ix2 k j) := by
  simp only [matmul]
  rw [Ideal.matmul_constant_zero_apply, ← Equiv.sum_comp (contrEquiv1 dot_S256x4096_S256x512_S4096x512_0_0_1_1_n_n 256 rfl rfl).symm]
  refine Finset.sum_congr rfl fun k _ => ?_
  have hk := contrEquiv1_symm_val dot_S256x4096_S256x512_S4096x512_0_0_1_1_n_n 256 rfl rfl k
  have el : dot_S256x4096_S256x512_S4096x512_0_0_1_1_n_n.lhsIdx (ix2 p j) ((contrEquiv1 dot_S256x4096_S256x512_S4096x512_0_0_1_1_n_n 256 rfl rfl).symm k) = ix2 k p := funext fun a => Fin.ext (by
    match a with
    | ⟨0, _⟩ => exact (lhs_0 _ _).trans hk
    | ⟨1, _⟩ => exact lhs_1 _ _)
  have er : dot_S256x4096_S256x512_S4096x512_0_0_1_1_n_n.rhsIdx (ix2 p j) ((contrEquiv1 dot_S256x4096_S256x512_S4096x512_0_0_1_1_n_n 256 rfl rfl).symm k) = ix2 k j := funext fun a => Fin.ext (by
    match a with
    | ⟨0, _⟩ => exact (rhs_0 _ _).trans hk
    | ⟨1, _⟩ => exact rhs_1 _ _)
  rw [el, er]

/-- The index a reduction over axis 0 inserts coordinate k into, at column j, is (k, j). -/
theorem lift_ix2 (h : S4096x512.Reduces [0] S512) (j : Fin 512) (k : Fin (S4096x512.size 0)) :
    h.lift (ix1 j) k = ix2 (⟨k.val, k.isLt⟩ : Fin 4096) j := by
  funext c; apply Fin.ext
  fin_cases c <;> rfl

/-- The maximum down axis 0, from the bottom element, at column j. -/
theorem colMax_apply (v : FVec Ideal S4096x512 .f32) (hφ : FKind.Formats .f32)
    (hacc : (0xFF800000#32 : BitVec 32) = FKind.maximumf.neutral .f32 hφ) (j : Fin 512) :
    multiReduction .maximumf [0] S512 v 0xFF800000#32 reduces_S4096x512_S512 hφ hacc (ix1 j)
      = (Finset.univ : Finset (Fin 4096)).fold max (Ideal.ofBits .f32 0xFF800000#32) (fun p' => v (ix2 p' j)) := by
  refine (Ideal.multiReduction_maximumf_single v _ reduces_S4096x512_S512 hφ hacc (ix1 j)).trans ?_
  have hf : (v ∘ reduces_S4096x512_S512.lift (ix1 j)) = fun k : Fin 4096 => v (ix2 k j) :=
    funext fun k => congrArg v (lift_ix2 reduces_S4096x512_S512 j k)
  exact congrArg (fun f => Finset.fold max (Ideal.ofBits .f32 0xFF800000#32) f (Finset.univ : Finset (Fin 4096))) hf

/-- The sum down axis 0, from zero, at column j. -/
theorem colSum_apply (v : FVec Ideal S4096x512 .f32) (hφ : FKind.Formats .f32)
    (hacc : (0x00000000#32 : BitVec 32) = FKind.add.neutral .f32 hφ) (j : Fin 512) :
    multiReduction .add [0] S512 v 0x00000000#32 reduces_S4096x512_S512 hφ hacc (ix1 j)
      = ∑ p' : Fin 4096, v (ix2 p' j) := by
  refine (Ideal.multiReduction_add_single v _ reduces_S4096x512_S512 hφ hacc (ix1 j)).trans ?_
  exact Finset.sum_congr rfl fun k _ => congrArg v (lift_ix2 reduces_S4096x512_S512 j k)

/-- A vector of 512 entries, cast to one row and broadcast over the 4096 rows, reads its entry j at (p, j). -/
theorem rowBcast_apply (w : FVec Ideal S512 .f32) (p : Fin 4096) (j : Fin 512) :
    broadcastTo S4096x512 (shapeCast S1x512 w shapeCasts_S512_S1x512) broadcasts_S1x512_S4096x512 (ix2 p j) = w (ix1 j) :=
  (broadcastTo_1b_ab_apply _ _ p j).trans (shapeCast_a_1a_apply w _ 0 j)

/-- The scores minus their column maximum, exponentiated: the numerators of the softmax. -/
def shifted (v : FVec Ideal S4096x512 .f32) : FVec Ideal S4096x512 .f32 :=
  exp (subf v (broadcastTo S4096x512 (shapeCast S1x512 (multiReduction .maximumf [0] S512 v 0xFF800000#32 reduces_S4096x512_S512 (.inl rfl) rfl) shapeCasts_S512_S1x512) broadcasts_S1x512_S4096x512))

theorem shifted_apply (v : FVec Ideal S4096x512 .f32) (p : Fin 4096) (j : Fin 512) :
    shifted v (ix2 p j)
      = Ideal.exp (v (ix2 p j) - (Finset.univ : Finset (Fin 4096)).fold max (Ideal.ofBits .f32 0xFF800000#32) (fun p' => v (ix2 p' j))) :=
  show Ideal.exp (v (ix2 p j) - broadcastTo S4096x512 (shapeCast S1x512 (multiReduction .maximumf [0] S512 v 0xFF800000#32 reduces_S4096x512_S512 (.inl rfl) rfl) shapeCasts_S512_S1x512) broadcasts_S1x512_S4096x512 (ix2 p j)) = _ from
    congrArg (fun m => Ideal.exp (v (ix2 p j) - m)) ((rowBcast_apply _ p j).trans (colMax_apply v _ _ j))

/-- The numerators over their column sums, stored with a leading unit axis. -/
def softmaxPay (v : FVec Ideal S4096x512 .f32) : FVec Ideal S1x4096x512 .f32 :=
  shapeCast S1x4096x512 (divf (shifted v) (broadcastTo S4096x512 (shapeCast S1x512 (multiReduction .add [0] S512 (shifted v) 0x00000000#32 reduces_S4096x512_S512 (.inl rfl) rfl) shapeCasts_S512_S1x512) broadcasts_S1x512_S4096x512)) shapeCasts_S4096x512_S1x4096x512

/-- At (0, p, j) this is the softmax of column j of the scores, at p. -/
theorem softmaxPay_apply (v : FVec Ideal S4096x512 .f32) (p : Fin 4096) (j : Fin 512) :
    softmaxPay v (ix3 (0 : Fin 1) p j) = Cert.Spec.colSoftmax (fun p' => v (ix2 p' j)) p := by
  unfold softmaxPay
  refine (shapeCast_ab_1ab_apply _ _ 0 p j).trans ?_
  show Ideal.div (shifted v (ix2 p j)) (broadcastTo S4096x512 (shapeCast S1x512 (multiReduction .add [0] S512 (shifted v) 0x00000000#32 reduces_S4096x512_S512 (.inl rfl) rfl) shapeCasts_S512_S1x512) broadcasts_S1x512_S4096x512 (ix2 p j)) = _
  unfold Cert.Spec.colSoftmax
  refine congrArg₂ Ideal.div (shifted_apply v p j) ?_
  refine ((rowBcast_apply _ p j).trans (colSum_apply (shifted v) _ _ j)).trans ?_
  exact Finset.sum_congr rfl fun p' _ => shifted_apply v p' j

/-- The right block with its unit axis dropped reads, at (k, j), the block at (0, k, j). -/
theorem rhsBlock_apply (x1 : Vec Ideal S1x256x512 .f32) (k : Fin 256) (j : Fin 512) :
    shapeCast S256x512 x1 shapeCasts_S1x256x512_S256x512 (ix2 k j) = x1 (ix3 (0 : Fin 1) k j) :=
  shapeCast_1ab_ab_apply x1 _ k j

/-- The scores: three products into zero, of the first stored block with the right block, of the first stored block
    (loaded again) with the right block minus itself, and of the second stored block with the right block. -/
def scores (x1 : Vec Ideal S1x256x512 .f32) (h0 h0' l0 : Vec Ideal S256x4096 .bf16) : FVec Ideal S4096x512 .f32 :=
  addf (addf (matmul (φ₁ := .bf16) dot_S256x4096_S256x512_S4096x512_0_0_1_1_n_n none h0 (truncf .bf16 (shapeCast S256x512 x1 shapeCasts_S1x256x512_S256x512) bitsLt_bf16_f32) (constant S4096x512 .f32 0x00000000#32))
      (matmul (φ₁ := .bf16) dot_S256x4096_S256x512_S4096x512_0_0_1_1_n_n none h0' (truncf .bf16 (subf (shapeCast S256x512 x1 shapeCasts_S1x256x512_S256x512) (shapeCast S256x512 x1 shapeCasts_S1x256x512_S256x512)) bitsLt_bf16_f32) (constant S4096x512 .f32 0x00000000#32)))
    (matmul (φ₁ := .bf16) dot_S256x4096_S256x512_S4096x512_0_0_1_1_n_n none l0 (truncf .bf16 (shapeCast S256x512 x1 shapeCasts_S1x256x512_S256x512) bitsLt_bf16_f32) (constant S4096x512 .f32 0x00000000#32))

theorem scores_apply (x1 : Vec Ideal S1x256x512 .f32) (h0 h0' l0 : Vec Ideal S256x4096 .bf16) (p : Fin 4096) (j : Fin 512) :
    scores x1 h0 h0' l0 (ix2 p j)
      = (∑ k : Fin 256, h0 (ix2 k p) * x1 (ix3 (0 : Fin 1) k j)
          + ∑ k : Fin 256, h0' (ix2 k p) * (x1 (ix3 (0 : Fin 1) k j) - x1 (ix3 (0 : Fin 1) k j)))
          + ∑ k : Fin 256, l0 (ix2 k p) * x1 (ix3 (0 : Fin 1) k j) := by
  unfold scores
  rw [addf_apply, addf_apply]
  refine congrArg₂ (· + ·) (congrArg₂ (· + ·) ?_ ?_) ?_
  · refine (mm_apply _ _ p j).trans (Finset.sum_congr rfl fun k _ => ?_)
    exact congrArg (h0 (ix2 k p) * ·) (rhsBlock_apply x1 k j)
  · refine (mm_apply _ _ p j).trans (Finset.sum_congr rfl fun k _ => ?_)
    exact congrArg (h0' (ix2 k p) * ·) (congrArg₂ (· - ·) (rhsBlock_apply x1 k j) (rhsBlock_apply x1 k j))
  · refine (mm_apply _ _ p j).trans (Finset.sum_congr rfl fun k _ => ?_)
    exact congrArg (l0 (ix2 k p) * ·) (rhsBlock_apply x1 k j)

/-- The stored result is the softmax part applied to the scores: the body's definitions unfold to this. -/
theorem pay4_eq (x1 : Vec Ideal S1x256x512 .f32) (h0 h0' l0 : Vec Ideal S256x4096 .bf16) :
    k0_pay4 (F := Ideal) x1 h0 h0' l0 = softmaxPay (scores x1 h0 h0' l0) := rfl

/-- The result block at (0, p, j): the softmax down the first axis of the three-pass correlation. -/
theorem pay4_apply (x1 : Vec Ideal S1x256x512 .f32) (h0 h0' l0 : Vec Ideal S256x4096 .bf16) (p : Fin 4096) (j : Fin 512) :
    k0_pay4 (F := Ideal) x1 h0 h0' l0 (ix3 (0 : Fin 1) p j)
      = Cert.Spec.colSoftmax (fun p' : Fin 4096 =>
          (∑ k : Fin 256, h0 (ix2 k p') * x1 (ix3 (0 : Fin 1) k j)
            + ∑ k : Fin 256, h0' (ix2 k p') * (x1 (ix3 (0 : Fin 1) k j) - x1 (ix3 (0 : Fin 1) k j)))
            + ∑ k : Fin 256, l0 (ix2 k p') * x1 (ix3 (0 : Fin 1) k j)) p := by
  rw [pay4_eq, softmaxPay_apply]
  exact congrArg (fun c => Cert.Spec.colSoftmax c p) (funext fun p' => scores_apply x1 h0 h0' l0 p' j)

end Cert.KernelIdeal.Pay

end
-- ==== Proof.Scratch.lean ====
/-
  The scratch pair along the grid. The kernel splits the batch's slab x of the first feature array into x and x - x
  only at the first tile of each batch and carries the pair through the batch's other seven tiles untouched. So
  after EVERY point t the first scratch buffer holds batch t / 8 of the first array and the second holds that slab
  minus itself: at a first tile because the body has just stored them, at any other tile because the point before
  (same batch) left them so. This is an induction on the point.
-/
import proofs.«103866_j9457517986040_2_alg».proof.Proof.Pieces
import proofs.«103866_j9457517986040_2_alg».proof.Proof.Blocks
import proofs.«103866_j9457517986040_2_alg».proof.Proof.Payload

noncomputable section

open Idealize.ShloMosaic Idealize.ShloMosaic.TcCoe Idealize.SL.Sem
open Idealize.ShloMosaic.Pipeline (Dat)

namespace Cert.KernelIdeal.Scratch

open Cert.KernelIdeal Cert.KernelIdeal.Gen Idealize.ShloMosaic.ValueIdx Cert.KernelIdeal.Blocks

/-! ## The pieces at a grid point, for any float instance -/

section AnyInstance
variable {F : FTy → Type} [FloatOps F]
variable (m : (ℓ : Loc nD τ sig) → Buf (Elt F) ℓ)

/-- At a first tile the first scratch buffer is left at the batch's slab. -/
theorem hi_first (c : Dev nD) (t : Fin cfg0.N) (h0 : t.val % 8 = 0) :
    (outsAt0 m c t.val t.isLt).2.1 = k0_pay2 (iblk m c 0 t) := by
  rw [outsAt0_A m c t h0]
  dsimp only
  exact Pieces.hi_stored c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)

/-- At a first tile the second scratch buffer is left at the slab minus itself. -/
theorem lo_first (c : Dev nD) (t : Fin cfg0.N) (h0 : t.val % 8 = 0) :
    (outsAt0 m c t.val t.isLt).2.2 = k0_pay3 (iblk m c 0 t) := by
  rw [outsAt0_A m c t h0]
  dsimp only
  exact Pieces.lo_stored c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)

/-- At a first tile the output block is the softmax of the tile against the pair just stored. -/
theorem out_first (c : Dev nD) (t : Fin cfg0.N) (h0 : t.val % 8 = 0) :
    (outsAt0 m c t.val t.isLt).1
      = k0_pay4 (iblk m c 1 t) (k0_pay2 (iblk m c 0 t)) (k0_pay2 (iblk m c 0 t)) (k0_pay3 (iblk m c 0 t)) := by
  rw [outsAt0_A m c t h0]
  dsimp only
  exact Pieces.out_storing c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)

/-- At any other tile the scratch pair is what the point before left. -/
theorem hi_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 := by
  rw [outsAt0_B m c t h0]
  rfl

theorem lo_later (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- At any other tile the output block is the softmax of the tile against the pair the point before left. -/
theorem out_later (c : Dev nD) (t : Fin cfg0.N) (h0 : ¬t.val % 8 = 0) :
    (outsAt0 m c t.val t.isLt).1
      = k0_pay4 (iblk m c 1 t) (outsAt0 m c (t.val - 1) (Nat.lt_of_le_of_lt (Nat.sub_le _ _) t.isLt)).2.1
          (outsAt0 m c (t.val - 1) (Nat.lt_of_le_of_lt (Nat.sub_le _ _) t.isLt)).2.1
          (outsAt0 m c (t.val - 1) (Nat.lt_of_le_of_lt (Nat.sub_le _ _) t.isLt)).2.2 := by
  rw [outsAt0_B m c t h0]
  dsimp only
  exact Pieces.out_keeping c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t) _ _

end AnyInstance

/-! ## The scratch pair after every point, at the ideal instance -/

variable (m : (ℓ : Loc nD τ sig) → Buf (Elt Ideal) ℓ)

/-- The first feature array, flattened, as the kernel finds it. -/
abbrev fa (c : Dev nD) : Cert.Spec.Feat.Idx → EReal := V m c main_v0
/-- The second feature array, flattened, as the kernel finds it. -/
abbrev fb (c : Dev nD) : Cert.Spec.Feat.Idx → EReal := V m c main_v1

/-- The first array's block at point t is batch t / 8 of it. -/
theorem blk0 (c : Dev nD) (t : Fin cfg0.N) (k : Fin 256) (p : Fin 4096) :
    (iblk m c 0 t : Vec Ideal S1x256x4096 .f32) (ix3 (0 : Fin 1) k p) = fa m c (ix3 (batch t) k p) :=
  iblk0_apply m c t k p

/-- The second array's block at point t is columns 512 (t % 8) ... of batch t / 8 of it. -/
theorem blk1 (c : Dev nD) (t : Fin cfg0.N) (k : Fin 256) (j : Fin 512) :
    (iblk m c 1 t : Vec Ideal S1x256x512 .f32) (ix3 (0 : Fin 1) k j) = fb m c (ix3 (batch t) k (col t j)) :=
  iblk1_apply m c t k j

/-- The split of the batch's slab, read at an index. -/
theorem hi_slab (c : Dev nD) (t : Fin cfg0.N) (k : Fin 256) (p : Fin 4096) :
    k0_pay2 (F := Ideal) (iblk m c 0 t) (ix2 k p) = fa m c (ix3 (batch t) k p) :=
  (Pay.pay2_apply (iblk m c 0 t) k p).trans (blk0 m c t k p)

theorem lo_slab (c : Dev nD) (t : Fin cfg0.N) (k : Fin 256) (p : Fin 4096) :
    k0_pay3 (F := Ideal) (iblk m c 0 t) (ix2 k p) = fa m c (ix3 (batch t) k p) - fa m c (ix3 (batch t) k p) :=
  (Pay.pay3_apply (iblk m c 0 t) k p).trans
    (congrArg₂ (fun x y : EReal => x - y) (blk0 m c t k p) (blk0 m c t k p))

/-- After point n the first scratch buffer holds batch n / 8 of the first feature array and the second that slab
    minus itself. -/
theorem pair_at (c : Dev nD) : ∀ (n : ℕ) (hn : n < cfg0.N) (k : Fin 256) (p : Fin 4096),
    (outsAt0 m c n hn).2.1 (ix2 k p) = fa m c (ix3 (batch ⟨n, hn⟩) k p)
    ∧ (outsAt0 m c n hn).2.2 (ix2 k p) = fa m c (ix3 (batch ⟨n, hn⟩) k p) - fa m c (ix3 (batch ⟨n, hn⟩) k p)
  | 0, hn, k, p =>
    ⟨(congrFun (hi_first m c ⟨0, hn⟩ rfl) (ix2 k p)).trans (hi_slab m c ⟨0, hn⟩ k p),
      (congrFun (lo_first m c ⟨0, hn⟩ rfl) (ix2 k p)).trans (lo_slab m c ⟨0, hn⟩ k p)⟩
  | n + 1, hn, k, p => by
    by_cases h0 : (n + 1) % 8 = 0
    · exact ⟨(congrFun (hi_first m c ⟨n + 1, hn⟩ h0) (ix2 k p)).trans (hi_slab m c ⟨n + 1, hn⟩ k p),
        (congrFun (lo_first m c ⟨n + 1, hn⟩ h0) (ix2 k p)).trans (lo_slab m c ⟨n + 1, hn⟩ k p)⟩
    · have ih := pair_at c n (Nat.lt_of_succ_lt hn) k p
      have hb : batch ⟨n, Nat.lt_of_succ_lt hn⟩ = batch ⟨n + 1, hn⟩ := Fin.ext (by show n / 8 = (n + 1) / 8; omega)
      rw [hb] at ih
      exact ⟨(congrFun (hi_later m c ⟨n + 1, hn⟩ h0) (ix2 k p)).trans ih.1,
        (congrFun (lo_later m c ⟨n + 1, hn⟩ h0) (ix2 k p)).trans ih.2⟩

end Cert.KernelIdeal.Scratch

end
-- ==== Proof.KValue.lean ====
/-
  The correlation volume after the kernel, at the ideal instance, as one function of the two flattened feature
  arrays a, b the kernel finds. At point t (batch n = t / 8, columns 512 (t % 8) ...) the body leaves in the output
  block, at (p, j), the column softmax of the three-pass correlation of the scratch pair with the split of b's tile;
  the scratch pair is batch n of a and that slab minus itself at every point, so the score at (p', j) is
  corr3 a b n p' (512 (t % 8) + j), and on arrays of real numbers that is corr a b n p' q: the block is the block of
  the specification G a b. Every point writes its block back and the 32 blocks cover the volume.
-/
import proofs.«103866_j9457517986040_2_alg».proof.Proof.Scratch

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.KernelIdeal.Blocks Cert.KernelIdeal.Scratch

variable (m : (ℓ : Loc nD τ sig) → Buf (Elt Ideal) ℓ)

/-- The block law, over plain variables: a tile x1 of b (column j of the tile being column q of batch n) and a
    scratch pair holding batch n of a and that slab minus itself give, at (p, j), the specification at (n, p, q). -/
theorem block_eq (a b : Cert.Spec.Feat.Idx → EReal) (ha : ∀ i, a i ≠ ⊤ ∧ a i ≠ ⊥) (hb : ∀ i, b i ≠ ⊤ ∧ b i ≠ ⊥)
    (n : Fin 4) (q : Fin 4096) (j : Fin 512)
    (x1 : Vec Ideal S1x256x512 .f32) (h0 h0' l0 : Vec Ideal S256x4096 .bf16)
    (e0 : ∀ k p, h0 (ix2 k p) = a (ix3 n k p)) (e0' : ∀ k p, h0' (ix2 k p) = a (ix3 n k p))
    (e1 : ∀ k p, l0 (ix2 k p) = a (ix3 n k p) - a (ix3 n k p))
    (e2 : ∀ k, x1 (ix3 (0 : Fin 1) k j) = b (ix3 n k q)) (p : Fin 4096) :
    k0_pay4 (F := Ideal) x1 h0 h0' l0 (ix3 (0 : Fin 1) p j) = Cert.Spec.G a b (ix3 n p q) := by
  refine (Pay.pay4_apply x1 h0 h0' l0 p j).trans ?_
  refine (congrArg (fun f => Cert.Spec.colSoftmax f p) (funext fun p' => ?_)).trans (Cert.Spec.G_ix3 a b n p q).symm
  refine Eq.trans ?_ (Cert.Spec.corr3_eq_corr a b ha hb n p' q)
  unfold Cert.Spec.corr3
  simp only [e0, e0', e1, e2]

/-- The output block point t leaves, at (p, j), is the specification at (t / 8, p, 512 (t % 8) + j). -/
theorem out_at (c : Dev nD) (ha : ∀ i, fa m c i ≠ ⊤ ∧ fa m c i ≠ ⊥)
    (hb : ∀ i, fb m c i ≠ ⊤ ∧ fb m c i ≠ ⊥) (t : Fin cfg0.N) (p : Fin 4096) (j : Fin 512) :
    (outsAt0 m c t.val t.isLt).1 (ix3 (0 : Fin 1) p j)
      = Cert.Spec.G (fa m c) (fb m c) (ix3 (batch t) p (col t j)) := by
  by_cases h0 : t.val % 8 = 0
  · refine (congrFun (out_first m c t h0) (ix3 (0 : Fin 1) p j)).trans ?_
    exact block_eq (fa m c) (fb m c) ha hb (batch t) (col t j) j (iblk m c 1 t)
      (k0_pay2 (iblk m c 0 t)) (k0_pay2 (iblk m c 0 t)) (k0_pay3 (iblk m c 0 t))
      (hi_slab m c t) (hi_slab m c t) (lo_slab m c t) (fun k => blk1 m c t k j) p
  · have hN : t.val < 32 := lt_of_lt_of_eq t.isLt (show cfg0.N = 32 from N_0)
    have hlt : t.val - 1 < cfg0.N := Nat.lt_of_le_of_lt (Nat.sub_le _ _) t.isLt
    have hbt : batch ⟨t.val - 1, hlt⟩ = batch t := Fin.ext (by show (t.val - 1) / 8 = t.val / 8; omega)
    have hp := pair_at m c (t.val - 1) hlt
    rw [hbt] at hp
    refine (congrFun (out_later m c t h0) (ix3 (0 : Fin 1) p j)).trans ?_
    exact block_eq (fa m c) (fb m c) ha hb (batch t) (col t j) j (iblk m c 1 t)
      (outsAt0 m c (t.val - 1) hlt).2.1 (outsAt0 m c (t.val - 1) hlt).2.1 (outsAt0 m c (t.val - 1) hlt).2.2
      (fun k p' => (hp k p').1) (fun k p' => (hp k p').1) (fun k p' => (hp k p').2) (fun k => blk1 m c t k j) p

/-- What point t writes back is block t of the specification. -/
theorem flushed_eq (c : Dev nD) (ha : ∀ i, fa m c i ≠ ⊤ ∧ fa m c i ≠ ⊥)
    (hb : ∀ i, fb m c i ≠ ⊤ ∧ fb m c i ≠ ⊥) (t : Fin cfg0.N) :
    (dats m 0 c).flushed 2 t
      = ((cfg0.win 2).blk t).view.read (Elt Ideal) (Cert.Spec.G (fa m c) (fb m c)) := by
  show (cfg0.win 2).cut (grid0.coords t) ((dats m 0 c).after 2 t) = _
  rw [after0_2]
  funext y
  obtain ⟨u, p, j, rfl⟩ : ∃ (u : Fin 1) (p : Fin 4096) (j : Fin 512), y = ix3 u p j := ⟨y 0, y 1, y 2, eq_ix3 y⟩
  obtain rfl : u = 0 := Subsingleton.elim _ _
  show (outsAt0 m c t.val t.isLt).1 (ix3 (0 : Fin 1) p j)
    = Cert.Spec.G (fa m c) (fb m c) (((cfg0.win 2).blk t).view.emb (ix3 (0 : Fin 1) p j))
  rw [oblk_emb t p j]
  exact out_at m c ha hb t p j

/-- The volume after the kernel is the specification of the two flattened arrays. -/
theorem final (c : Dev nD) (ha : ∀ i, fa m c i ≠ ⊤ ∧ fa m c i ≠ ⊥)
    (hb : ∀ i, fb m c i ≠ ⊤ ∧ fb m c i ≠ ⊥) :
    (dats m 0 c).arrAt 2 cfg0.N = Cert.Spec.G (fa m c) (fb m c) :=
  (dats m 0 c).arrAt_eq_of_cover 2 (Cert.Spec.G (fa m c) (fb m c))
    (fun t _ => flushed_eq m c ha hb t) cover

end Cert.KernelIdeal.KValue

end
-- ==== Proof.HostSides.lean ====
/-
  The program around the kernel. Before it, each 4-dimensional feature array [4, 256, 64, 64] is flattened over its
  64 x 64 positions to [4, 256, 4096]; after it, the correlation volume [4, 4096, 4096] is unflattened on its last axis
  to [4, 4096, 64, 64]. Both are re-indexings in row-major order. So the kernel finds the flattened arrays, and the
  result is the unflattening of whatever the volume ends holding.
-/
import proofs.«103866_j9457517986040_2_alg».proof.Proof.Gen.KernelIdeal.Frame
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.HostSides

open Cert.KernelIdeal Cert.KernelIdeal.Gen

variable {F : FTy → Type} [FloatOps F]
variable (m : (ℓ : Loc nD τ sig) → Buf (Elt F) ℓ)

/-- The kernel finds the first feature array flattened. -/
theorem head0 (c : Dev nD) :
    (V m c main_v0 : S4x256x4096.Idx → Elt F .f32)
      = shapeCast S4x256x4096 (m ((c : Thread nD τ).loc main_arg0)) shapeCasts_S4x256x64x64_S4x256x4096 := by
  show StableHlo.after hostOps0 (fun b => m (c, b)) (Proc.devRef .tc main_v0) = _
  after_results
  rfl

/-- The kernel finds the second feature array flattened. -/
theorem head1 (c : Dev nD) :
    (V m c main_v1 : S4x256x4096.Idx → Elt F .f32)
      = shapeCast S4x256x4096 (m ((c : Thread nD τ).loc main_arg1)) shapeCasts_S4x256x64x64_S4x256x4096 := by
  show StableHlo.after hostOps0 (fun b => m (c, b)) (Proc.devRef .tc main_v1) = _
  after_results
  rfl

/-- The result is the volume, as the kernel leaves it, unflattened. -/
theorem tail (c : Dev nD) :
    Pipeline.afterTail₀ cfgs (dats m) 0 (V0 m) [hostOps1] c main_v3
      = shapeCast S4x4096x64x64 ((dats m 0 c).arrAt 2 cfg0.N) shapeCasts_S4x4096x4096_S4x4096x64x64 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = (dats m 0 c).arrAt 2 cfg0.N :=
    Pipeline.withArrays_arr (cfgs 0).spec launch0.win.arr_inj c (V0 m c) (fun w => (dats m 0 c).arrAt w (cfgs 0).N) (2 : Fin 3)
  rw [e]
  rfl

end Cert.KernelIdeal.HostSides

end
-- ==== Proof.KRun.lean ====
/-
  The kernel's whole run, read. The program flattens the two feature arrays, runs the kernel, and unflattens the
  volume. The kernel finds the flattened arrays; when every entry of the two arguments is a real number so is every
  entry of the flattened arrays (a flattening only re-indexes), the volume ends at the specification G of them, and
  the result is its unflattening. The arguments end as they started.
-/
import proofs.«103866_j9457517986040_2_alg».proof.Proof.KValue
import proofs.«103866_j9457517986040_2_alg».proof.Proof.HostSides

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Scratch

variable (m : (ℓ : Loc nD τ sig) → Buf (Elt Ideal) ℓ) (ρ : Dev nD → PrngReg)

/-- The first feature array as launched. -/
abbrev a0 (c : Dev nD) : S4x256x64x64.Idx → EReal := m ((c : Thread nD τ).loc main_arg0)
/-- The second feature array as launched. -/
abbrev a1 (c : Dev nD) : S4x256x64x64.Idx → EReal := m ((c : Thread nD τ).loc main_arg1)

/-- A flattened array of real numbers is an array of real numbers. -/
theorem fa_real (c : Dev nD)
    (h : ∀ i, a0 m c i ≠ ⊤
      ∧ a0 m c i ≠ ⊥) :
    ∀ i, fa m c i ≠ ⊤ ∧ fa m c i ≠ ⊥ := fun i => by
  have e : fa m c i = a0 m c
      (Shape.reshapeEquiv shapeCasts_S4x256x64x64_S4x256x4096 i) := congrFun (HostSides.head0 m c) i
  rw [e]; exact h _

theorem fb_real (c : Dev nD)
    (h : ∀ i, a1 m c i ≠ ⊤
      ∧ a1 m c i ≠ ⊥) :
    ∀ i, fb m c i ≠ ⊤ ∧ fb m c i ≠ ⊥ := fun i => by
  have e : fb m c i = a1 m c
      (Shape.reshapeEquiv shapeCasts_S4x256x64x64_S4x256x4096 i) := congrFun (HostSides.head1 m c) i
  rw [e]; exact h _

/-- From arguments of real numbers every execution ends with the result at the unflattened softmax of the
    correlation of the flattened arguments, and the arguments unchanged. -/
theorem run
    (h0 : ∀ (c : Dev nD) i, a0 m c i ≠ ⊤
      ∧ a0 m c i ≠ ⊥)
    (h1 : ∀ (c : Dev nD) i, a1 m c i ≠ ⊤
      ∧ a1 m c i ≠ ⊥) :
    θ_run defs (onTc (τ := τ) (main (F := Ideal))) ⟨m, fun _ => 0, ρ⟩ fun r => ∀ c : Dev nD,
      r.2.mem ((c : Thread nD τ).loc main_v3)
        = shapeCast S4x4096x64x64
            (Cert.Spec.G (shapeCast S4x256x4096 (m ((c : Thread nD τ).loc main_arg0)) shapeCasts_S4x256x64x64_S4x256x4096)
              (shapeCast S4x256x4096 (m ((c : Thread nD τ).loc main_arg1)) shapeCasts_S4x256x64x64_S4x256x4096))
            shapeCasts_S4x4096x4096_S4x4096x64x64
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans
        ((HostSides.tail m c).trans
          (congrArg (fun A : S4x4096x4096.Idx → EReal => shapeCast S4x4096x64x64 A shapeCasts_S4x4096x4096_S4x4096x64x64)
            ((KValue.final m c (fa_real m c (h0 c)) (fb_real m c (h1 c))).trans
              (congrArg₂ Cert.Spec.G (HostSides.head0 m c) (HostSides.head1 m c))))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.RefValue.lean ====
/-
  The reference program, read stage by stage at an index (n, p, q), is the specification G of its two flattened
  arguments: the contraction is the correlation corr n p q, the reduction with a maximum body down axis 1 is the
  column maximum M n q (the extra maximum with the bottom element changes nothing), the subtraction and the
  exponential give w n p q = exp (corr n p q - M n q), the reduction with an addition body from zero is the column
  sum of w, and the quotient is the softmax down the first position axis.
-/
import proofs.«103866_j9457517986040_2_alg».proof.Proof.Gen.ReferenceIdeal.Read
import proofs.«103866_j9457517986040_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-- The column maximum of the correlation: the fold of max from the bottom word over the first position axis. -/
def colMax (a b : Cert.Spec.Feat.Idx → EReal) (n : Fin 4) (q : Fin 4096) : EReal :=
  (Finset.univ : Finset (Fin 4096)).fold max (Ideal.ofBits .f32 0xFF800000#32) (fun p' => Cert.Spec.corr a b n p' q)

/-- The contraction at (n, p, q) is the correlation of position p of the first array with position q of the second. -/
theorem v2_ix3 (x0 x1 : (⟨S4x256x64x64, .f32⟩ : BufTy).Contents (Elt Ideal)) (n : Fin 4) (p q : Fin 4096) :
    val_main_v2 (F := Ideal) x0 x1 (ix3 n p q)
      = Cert.Spec.corr (val_main_v0 (F := Ideal) x0) (val_main_v1 (F := Ideal) x1) n p q := by
  rw [val_main_v2_apply]
  generalize val_main_v0 (F := Ideal) x0 = a
  generalize val_main_v1 (F := Ideal) x1 = b
  unfold Cert.Spec.corr
  refine Finset.sum_congr rfl fun k _ => ?_
  have el : lidx_main_v2 (ix3 n p q) k = ix3 n k p :=
    funext fun c => Fin.ext (by match c with | ⟨0, _⟩ => rfl | ⟨1, _⟩ => rfl | ⟨2, _⟩ => rfl)
  have er : ridx_main_v2 (ix3 n p q) k = ix3 n k q :=
    funext fun c => Fin.ext (by match c with | ⟨0, _⟩ => rfl | ⟨1, _⟩ => rfl | ⟨2, _⟩ => rfl)
  rw [el, er]

/-- The reduced index (n, q) with coordinate k put back on axis 1 is (n, k, q). -/
theorem lift_ix3 (h : S4x4096x4096.Reduces [1] S4x4096) (n : Fin 4) (q : Fin 4096)
    (k : Fin (S4x4096x4096.size 1)) : h.lift (ix2 n q) k = ix3 n (⟨k.val, k.isLt⟩ : Fin 4096) q := by
  funext c; apply Fin.ext
  fin_cases c <;> rfl

/-- The reduction with a maximum body down axis 1, at (n, q), is the fold of max over the column. -/
theorem v3_ix2 (x0 x1 : (⟨S4x256x64x64, .f32⟩ : BufTy).Contents (Elt Ideal)) (n : Fin 4) (q : Fin 4096) :
    val_main_v3 (F := Ideal) x0 x1 (ix2 n q)
      = (Finset.univ : Finset (Fin 4096)).fold max (Ideal.ofBits .f32 0xFF800000#32)
          (fun p' => val_main_v2 (F := Ideal) x0 x1 (ix3 n p' q)) := by
  unfold val_main_v3
  generalize val_main_v2 (F := Ideal) x0 x1 = y
  have h : S4x4096x4096.Reduces [1] S4x4096 := by decide
  refine (Host.reduce_eq_fold_single (α := Ideal .f32) (s := S4x4096x4096) (t := S4x4096) (a := 1) FloatOps.maximumf y _
    reducesTo_S4x4096x4096_S4x4096_d1 h h_S_ (ix2 n q)).trans ?_
  have hf : (y ∘ h.lift (ix2 n q)) = fun k : Fin 4096 => y (ix3 n k q) :=
    funext fun k => congrArg y (lift_ix3 h n q k)
  exact congrArg (fun f => Finset.fold max (Ideal.ofBits .f32 0xFF800000#32) f (Finset.univ : Finset (Fin 4096))) hf

/-- The maximum with the bottom element leaves the column maximum: at (n, q) it is the column maximum of the correlation. -/
theorem v5_ix2 (x0 x1 : (⟨S4x256x64x64, .f32⟩ : BufTy).Contents (Elt Ideal)) (n : Fin 4) (q : Fin 4096) :
    val_main_v5 (F := Ideal) x0 x1 (ix2 n q)
      = colMax (val_main_v0 (F := Ideal) x0) (val_main_v1 (F := Ideal) x1) n q := by
  rw [val_main_v5_apply, val_main_v4_apply, val_main_cst_0_apply, v3_ix2]
  have hfun : (fun p' : Fin 4096 => val_main_v2 (F := Ideal) x0 x1 (ix3 n p' q))
      = fun p' : Fin 4096 => Cert.Spec.corr (val_main_v0 (F := Ideal) x0) (val_main_v1 (F := Ideal) x1) n p' q :=
    funext fun p' => v2_ix3 x0 x1 n p' q
  rw [hfun]
  generalize val_main_v0 (F := Ideal) x0 = a
  generalize val_main_v1 (F := Ideal) x1 = b
  unfold colMax
  show max (Ideal.ofBits .f32 0xFF800000#32) _ = _
  exact max_eq_right ((Finset.le_fold_max _).mpr (Or.inl le_rfl))

/-- The column maximum, broadcast back over the first position axis. -/
theorem v7_ix3 (x0 x1 : (⟨S4x256x64x64, .f32⟩ : BufTy).Contents (Elt Ideal)) (n : Fin 4) (p q : Fin 4096) :
    val_main_v7 (F := Ideal) x0 x1 (ix3 n p q)
      = colMax (val_main_v0 (F := Ideal) x0) (val_main_v1 (F := Ideal) x1) n q := by
  rw [val_main_v7_apply, val_main_v6_apply]
  have e : idx_main_v6 (idx_main_v7 (ix3 n p q)) = ix2 n q :=
    funext fun c => Fin.ext (by match c with | ⟨0, _⟩ => rfl | ⟨1, _⟩ => rfl)
  rw [e, v5_ix2]

/-- The weight at (n, p, q): the exponential of the correlation less its column maximum. -/
theorem v9_ix3 (x0 x1 : (⟨S4x256x64x64, .f32⟩ : BufTy).Contents (Elt Ideal)) (n : Fin 4) (p q : Fin 4096) :
    val_main_v9 (F := Ideal) x0 x1 (ix3 n p q)
      = Ideal.exp (Cert.Spec.corr (val_main_v0 (F := Ideal) x0) (val_main_v1 (F := Ideal) x1) n p q
          - colMax (val_main_v0 (F := Ideal) x0) (val_main_v1 (F := Ideal) x1) n q) := by
  rw [val_main_v9_apply, val_main_v8_apply, v2_ix3, v7_ix3]
  rfl

/-- The reduction with an addition body from zero down axis 1, at (n, q), is the column sum of the weights. -/
theorem v10_ix2 (x0 x1 : (⟨S4x256x64x64, .f32⟩ : BufTy).Contents (Elt Ideal)) (n : Fin 4) (q : Fin 4096) :
    val_main_v10 (F := Ideal) x0 x1 (ix2 n q)
      = ∑ p' : Fin 4096, Ideal.exp (Cert.Spec.corr (val_main_v0 (F := Ideal) x0) (val_main_v1 (F := Ideal) x1) n p' q
          - colMax (val_main_v0 (F := Ideal) x0) (val_main_v1 (F := Ideal) x1) n q) := by
  rw [val_main_v10_apply, val_main_cst_1_apply]
  show Ideal.ofBits .f32 0x00000000#32 + _ = _
  rw [Ideal.ofBits_zero_f32, zero_add]
  refine Finset.sum_congr rfl fun k _ => ?_
  have e : idx_main_v10 (ix2 n q) k = ix3 n k q :=
    funext fun c => Fin.ext (by match c with | ⟨0, _⟩ => rfl | ⟨1, _⟩ => rfl | ⟨2, _⟩ => rfl)
  rw [e, v9_ix3]

/-- The column sum, broadcast back over the first position axis. -/
theorem v12_ix3 (x0 x1 : (⟨S4x256x64x64, .f32⟩ : BufTy).Contents (Elt Ideal)) (n : Fin 4) (p q : Fin 4096) :
    val_main_v12 (F := Ideal) x0 x1 (ix3 n p q)
      = ∑ p' : Fin 4096, Ideal.exp (Cert.Spec.corr (val_main_v0 (F := Ideal) x0) (val_main_v1 (F := Ideal) x1) n p' q
          - colMax (val_main_v0 (F := Ideal) x0) (val_main_v1 (F := Ideal) x1) n q) := by
  rw [val_main_v12_apply, val_main_v11_apply]
  have e : idx_main_v11 (idx_main_v12 (ix3 n p q)) = ix2 n q :=
    funext fun c => Fin.ext (by match c with | ⟨0, _⟩ => rfl | ⟨1, _⟩ => rfl)
  rw [e, v10_ix2]

/-- The reference's quotient stage is the specification of its two flattened arguments. -/
theorem v13_eq (x0 x1 : (⟨S4x256x64x64, .f32⟩ : BufTy).Contents (Elt Ideal)) :
    val_main_v13 (F := Ideal) x0 x1 = Cert.Spec.G (val_main_v0 (F := Ideal) x0) (val_main_v1 (F := Ideal) x1) := by
  funext i
  obtain ⟨n, p, q, rfl⟩ : ∃ (n : Fin 4) (p q : Fin 4096), i = ix3 n p q := ⟨i 0, i 1, i 2, eq_ix3 i⟩
  rw [val_main_v13_apply, v9_ix3, v12_ix3, Cert.Spec.G_ix3]
  rfl

/-- The reference's result: the specification, with its last axis split back into 64 x 64. -/
theorem v14_eq (x0 x1 : (⟨S4x256x64x64, .f32⟩ : BufTy).Contents (Elt Ideal)) :
    val_main_v14 (F := Ideal) x0 x1
      = shapeCast _ (Cert.Spec.G (val_main_v0 (F := Ideal) x0) (val_main_v1 (F := Ideal) x1))
          shapeCasts_S4x4096x4096_S4x4096x64x64 := by
  unfold val_main_v14
  rw [v13_eq]

end Cert.ReferenceIdeal.RefValue

end
-- ==== Proof.Finite.lean ====
/-
  The precondition, read back. It is the conjunction, over both argument arrays, of "every entry x has |x| below
  the word 0x7F800000", and that word is the top element of the extended reals. An entry whose absolute value
  max x (-x) is below the top element is neither the top element (its own value would be the top) nor the bottom
  element (its negation would be the top): it is a real number.
-/
import proofs.«103866_j9457517986040_2_alg».proof.Pre_finite_inputs
import proofs.«103866_j9457517986040_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Idealize.ShloMosaic.ValueIdx

/-- The rank-0 shape has one index. -/
instance : Subsingleton Cert.Pre_finite_inputs.S_.Idx := ⟨fun a b => funext fun d => d.elim0⟩

/-- An extended real whose absolute value compares below the word 0x7F800000 is a real number. -/
theorem real_of_abs_lt (x : EReal)
    (h : Ideal.cmp .olt (max x (-x)) (Ideal.ofBits .f32 0x7F800000#32) = 1#1) : x ≠ ⊤ ∧ x ≠ ⊥ := by
  have ht : Ideal.ofBits .f32 0x7F800000#32 = (⊤ : EReal) := by simp [Ideal.ofBits, Ideal.ieee]
  rw [ht] at h
  have hlt : max x (-x) < ⊤ := by
    by_contra hn
    have h0 : Ideal.cmp .olt (max x (-x)) ⊤ = 0#1 := by simp [Ideal.cmp, hn]
    rw [h0] at h
    exact absurd h (by decide)
  refine ⟨?_, ?_⟩
  · rintro rfl
    simp at hlt
  · rintro rfl
    simp at hlt

/-- The precondition holds only of two arrays of real numbers. -/
theorem finite_of_pre [Cert.Pre_finite_inputs.Facts] (x0 x1 : FVec Ideal Cert.Pre_finite_inputs.S4x256x64x64 .f32)
    (h : Cert.Pre_finite_inputs.fn (F := Ideal) x0 x1 = fun _ => 1#1) :
    (∀ i, x0 i ≠ ⊤ ∧ x0 i ≠ ⊥) ∧ (∀ i, x1 i ≠ ⊤ ∧ x1 i ≠ ⊥) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt (x0 i) e
  · have e := Host.reduce_andi_all _ _ _ _ _ hb i
    exact real_of_abs_lt (x1 i) e

end Cert.Finite
-- ==== Proof.lean ====
/-
  The correlation layer: for two feature arrays f1, f2 of shape [4, 256, 64, 64], the all-pairs correlation
  corr[n, p, q] = ∑ k, f1[n, k, p] * f2[n, k, q] over the 4096 = 64 x 64 positions, followed by a softmax down the
  FIRST position axis p, reshaped to [4, 4096, 64, 64].

  The kernel computes it tile by tile (a batch and 512 columns q at a time) with each entry x split into x (narrowed
  and widened again, which the idealization removes) and x - x, and the correlation as three products
  hi * hi + hi * lo + lo * hi; the split of f1's slab is kept in two scratch buffers across the eight tiles of a
  batch. The reference is one contraction and jax's softmax. Over the extended reals the two agree as soon as
  every input entry is a real number, because then x - x = 0 and the two correction products vanish: this is where
  the precondition is used. The softmax itself (maximum from the bottom element, exponential, sum from zero, quotient)
  is the same function on both sides and is never opened: both results are stated as the unflattening of ONE function
  G (Proof/Spec.lean) of the flattened arguments.

  Proof/Spec.lean         the specification G and the law  three-pass correlation = correlation  on real entries
  Proof/Payload.lean      the values the kernel's body stores, read at an index
  Proof/Pieces.lean       what one run of the body leaves in the output block and the scratch pair
  Proof/Blocks.lean       where each block sits in its array; the output blocks cover the volume
  Proof/Scratch.lean      the scratch pair after every grid point (induction on the point)
  Proof/KValue.lean       the volume after the kernel is G of the flattened arrays
  Proof/HostSides.lean    the flattening before and the unflattening after the kernel
  Proof/KRun.lean         the kernel program's run with its result named
  Proof/RefValue.lean     the reference's term is G of the flattened arguments
  Proof/Finite.lean       the precondition says every entry is a real number
-/
import proofs.«103866_j9457517986040_2_alg».proof.Defs
import proofs.«103866_j9457517986040_2_alg».proof.Proof.Gen.Kernel
import proofs.«103866_j9457517986040_2_alg».proof.Proof.Gen.Kernel.Skeleton
import proofs.«103866_j9457517986040_2_alg».proof.Proof.Gen.Kernel.Launch
import proofs.«103866_j9457517986040_2_alg».proof.Proof.Gen.Kernel.Points
import proofs.«103866_j9457517986040_2_alg».proof.Proof.Gen.Kernel.Frame
import proofs.«103866_j9457517986040_2_alg».proof.Proof.Gen.KernelIdeal
import proofs.«103866_j9457517986040_2_alg».proof.Proof.Gen.KernelIdeal.Skeleton
import proofs.«103866_j9457517986040_2_alg».proof.Proof.Gen.KernelIdeal.Launch
import proofs.«103866_j9457517986040_2_alg».proof.Proof.Gen.KernelIdeal.Points
import proofs.«103866_j9457517986040_2_alg».proof.Proof.Gen.KernelIdeal.Frame
import proofs.«103866_j9457517986040_2_alg».proof.Proof.Gen.ReferenceIdeal
import proofs.«103866_j9457517986040_2_alg».proof.Proof.Gen.ReferenceIdeal.Run
import proofs.«103866_j9457517986040_2_alg».proof.Proof.Gen.ReferenceIdeal.Read
import proofs.«103866_j9457517986040_2_alg».proof.Proof.Gen.Pre_finite_inputs
import proofs.«103866_j9457517986040_2_alg».proof.Proof.Spec
import proofs.«103866_j9457517986040_2_alg».proof.Proof.KRun
import proofs.«103866_j9457517986040_2_alg».proof.Proof.RefValue
import proofs.«103866_j9457517986040_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two rewrites of the idealization: narrowing to the 16-bit format and widening back is the identity on the
    slab of the first array and on the tile of the second. -/
theorem preserves : Cert.preserves_Kernel_KernelIdeal :=
  ⟨IdealRules.truncf_extf.statement _ .f32 .bf16, IdealRules.truncf_extf.statement _ .f32 .bf16⟩

/-- From arguments that agree and satisfy the precondition both programs end with the unflattened softmax of the
    correlation of the flattened arguments. -/
theorem algebraic : Cert.algebraic_KernelIdeal_ReferenceIdeal := by
  intro m ρ m' ρ' hpre hagree
  have hfin := fun c : Dev Cert.KernelIdeal.nD => Cert.Finite.finite_of_pre _ _ (hpre c)
  refine ⟨_, Cert.KernelIdeal.KRun.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.v14_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
